-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x512 : Shape := ⟨2, ![16384, 512]⟩
abbrev S2048x512 : Shape := ⟨2, ![2048, 512]⟩
abbrev S2048 : Shape := ⟨1, ![2048]⟩
abbrev S_ : Shape := ⟨0, ![]⟩

class Facts : Prop where
  bcast_S_S16384x512 : S_.BroadcastsInDim S16384x512 (![] : Fin 0 → Fin S16384x512.rank)
  reducesTo_S16384x512_S_d0_1 : S16384x512.ReducesTo [0, 1] S_
  h_S_ : 0 < S_.numel
  bcast_S_S2048x512 : S_.BroadcastsInDim S2048x512 (![] : Fin 0 → Fin S2048x512.rank)
  reducesTo_S2048x512_S_d0_1 : S2048x512.ReducesTo [0, 1] S_
  bcast_S_S2048 : S_.BroadcastsInDim S2048 (![] : Fin 0 → Fin S2048.rank)
  reducesTo_S2048_S_d0 : S2048.ReducesTo [0] S_

variable [Facts]

def fn {F : FTy → Type} [FloatOps F] (main_arg0 : FVec F S16384x512 .f32) (main_arg1 : FVec F S2048x512 .f32) (main_arg2 : FVec F S2048 .f32) : IVec S_ 1 :=
  let main_v0 : FVec F S16384x512 .f32 := Host.absf main_arg0
  let main_cst : FVec F S_ .f32 := constant S_ .f32 0x7F800000#32
  let main_v1 : FVec F S16384x512 .f32 := broadcastInDim S16384x512 ![] bcast_S_S16384x512 main_cst
  let main_v2 : IVec S16384x512 1 := cmpf .olt main_v0 main_v1
  let main_c : IVec S_ 1 := constantI S_ 1 1#1
  let main_v3 : IVec S_ 1 := (fun x v => Host.reduce IntOp.andi x v reducesTo_S16384x512_S_d0_1 h_S_) main_v2 main_c
  let main_v4 : FVec F S2048x512 .f32 := Host.absf main_arg1
  let main_cst_0 : FVec F S_ .f32 := constant S_ .f32 0x7F800000#32
  let main_v5 : FVec F S2048x512 .f32 := broadcastInDim S2048x512 ![] bcast_S_S2048x512 main_cst_0
  let main_v6 : IVec S2048x512 1 := cmpf .olt main_v4 main_v5
  let main_c_1 : IVec S_ 1 := constantI S_ 1 1#1
  let main_v7 : IVec S_ 1 := (fun x v => Host.reduce IntOp.andi x v reducesTo_S2048x512_S_d0_1 h_S_) main_v6 main_c_1
  let main_v8 : IVec S_ 1 := andi main_v3 main_v7
  let main_v9 : FVec F S2048 .f32 := Host.absf main_arg2
  let main_cst_2 : FVec F S_ .f32 := constant S_ .f32 0x7F800000#32
  let main_v10 : FVec F S2048 .f32 := broadcastInDim S2048 ![] bcast_S_S2048 main_cst_2
  let main_v11 : IVec S2048 1 := cmpf .olt main_v9 main_v10
  let main_c_3 : IVec S_ 1 := constantI S_ 1 1#1
  let main_v12 : IVec S_ 1 := (fun x v => Host.reduce IntOp.andi x v reducesTo_S2048_S_d0 h_S_) main_v11 main_c_3
  let main_v13 : IVec S_ 1 := andi main_v8 main_v12
  main_v13
-- ==== Kernel.lean ====
abbrev S16384x512 : Shape := ⟨2, ![16384, 512]⟩
abbrev S2048x512 : Shape := ⟨2, ![2048, 512]⟩
abbrev S2048 : Shape := ⟨1, ![2048]⟩
abbrev S512x2048 : Shape := ⟨2, ![512, 2048]⟩
abbrev S1x2048 : Shape := ⟨2, ![1, 2048]⟩
abbrev S_ : Shape := ⟨0, ![]⟩
abbrev S16384x2048 : Shape := ⟨2, ![16384, 2048]⟩
abbrev S512x512 : Shape := ⟨2, ![512, 512]⟩
abbrev S512 : Shape := ⟨1, ![512]⟩
abbrev S512x1 : Shape := ⟨2, ![512, 1]⟩

abbrev nBuf : Space → Nat
  | .hbm => 10
  | .vmem => 7
  | .smem => 0
  | _ => 0

abbrev bufTy : (tb : Table) → Fin (tcTables nBuf tb) → BufTy
  | .hbm, ⟨0, _⟩ => ⟨S16384x512, .f32⟩
  | .hbm, ⟨1, _⟩ => ⟨S2048x512, .f32⟩
  | .hbm, ⟨2, _⟩ => ⟨S2048, .f32⟩
  | .hbm, ⟨3, _⟩ => ⟨S512x2048, .f32⟩
  | .hbm, ⟨4, _⟩ => ⟨S1x2048, .f32⟩
  | .hbm, ⟨5, _⟩ => ⟨S2048x512, .f32⟩
  | .hbm, ⟨6, _⟩ => ⟨S_, .f32⟩
  | .hbm, ⟨7, _⟩ => ⟨S2048, .f32⟩
  | .hbm, ⟨8, _⟩ => ⟨S1x2048, .f32⟩
  | .hbm, ⟨9, _⟩ => ⟨S16384x2048, .f32⟩
  | .local _ .vmem, ⟨0, _⟩ => ⟨S512x512, .f32⟩
  | .local _ .vmem, ⟨1, _⟩ => ⟨S512x512, .f32⟩
  | .local _ .vmem, ⟨2, _⟩ => ⟨S512x2048, .f32⟩
  | .local _ .vmem, ⟨3, _⟩ => ⟨S1x2048, .f32⟩
  | .local _ .vmem, ⟨4, _⟩ => ⟨S1x2048, .f32⟩
  | .local _ .vmem, ⟨5, _⟩ => ⟨S512x2048, .f32⟩
  | .local _ .vmem, ⟨6, _⟩ => ⟨S512x2048, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  transposes_S2048x512_S512x2048_1_0 : S2048x512.Transposes [1, 0] S512x2048
  shapeCasts_S2048_S1x2048 : S2048.ShapeCasts S1x2048
  reducesTo_S2048x512_S2048_d1 : S2048x512.ReducesTo [1] S2048
  h_S_ : 0 < S_.numel
  inb_S512x512_S512x512_0_0 : ∀ a, (![0, 0] : Fin 2 → Nat) a + S512x512.size a ≤ S512x512.size a
  h_S512x512 : 0 < S512x512.numel
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  reduces_S512x512_S512 : S512x512.Reduces [1] S512
  shapeCasts_S512_S512x1 : S512.ShapeCasts S512x1
  bitsLt_bf16_f32 : FTy.bits .bf16 < FTy.bits .f32
  broadcasts_S512x1_S512x2048 : S512x1.Broadcasts S512x2048
  broadcasts_S1x2048_S512x2048 : S1x2048.Broadcasts S512x2048
  dot_S512x512_S512x2048_S512x2048_1_0_0_1_n_n_wf : DotDims.WF S512x512 S512x2048 S512x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S16384x512.size a
  hwx0_0 : ∀ i : grid0.Coords, EltTy.bits .f32 = 32 ∨ (Rect.block (s := S16384x512) S512x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x2048.size a ≤ S512x2048.size a
  hwx0_1 : ∀ i : grid0.Coords, EltTy.bits .f32 = 32 ∨ (Rect.block (s := S512x2048) S512x2048.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x2048.size a ≤ S1x2048.size a
  hwx0_2 : ∀ i : grid0.Coords, EltTy.bits .f32 = 32 ∨ (Rect.block (s := S1x2048) S1x2048.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x2048.size a ≤ S1x2048.size a
  hwx0_3 : ∀ i : grid0.Coords, EltTy.bits .f32 = 32 ∨ (Rect.block (s := S1x2048) S1x2048.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x2048.size a ≤ S16384x2048.size a
  hwx0_4 : ∀ i : grid0.Coords, EltTy.bits .f32 = 32 ∨ (Rect.block (s := S16384x2048) S512x2048.size (cc0_transform_4 i) (hinb0_4 i)).WholeWords (EltTy.packing .f32)

variable [Facts₀]

def dot_S512x512_S512x2048_S512x2048_1_0_0_1_n_n : DotDims S512x512 S512x2048 S512x2048 where
  lhsContracting := [1]
  rhsContracting := [0]
  lhsNonContracting := [0]
  rhsNonContracting := [1]
  lhsBatch := []
  rhsBatch := []
  wf := dot_S512x512_S512x2048_S512x2048_1_0_0_1_n_n_wf

abbrev win0_0 : Pipeline.Window sig grid0 :=
  Pipeline.Window.ofSpec (Memref.whole main_arg0) S512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S512x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1x2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S512x2048.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S16384x512 : Shape := ⟨2, ![16384, 512]⟩
abbrev S2048x512 : Shape := ⟨2, ![2048, 512]⟩
abbrev S2048 : Shape := ⟨1, ![2048]⟩
abbrev S_ : Shape := ⟨0, ![]⟩
abbrev S16384 : Shape := ⟨1, ![16384]⟩
abbrev S16384x1 : Shape := ⟨2, ![16384, 1]⟩
abbrev S16384x2048 : Shape := ⟨2, ![16384, 2048]⟩
abbrev S1x2048 : Shape := ⟨2, ![1, 2048]⟩

abbrev nBuf : Space → Nat
  | .hbm => 24
  | .vmem => 0
  | .smem => 0
  | _ => 0

abbrev bufTy : (tb : Table) → Fin (tcTables nBuf tb) → BufTy
  | .hbm, ⟨0, _⟩ => ⟨S16384x512, .f32⟩
  | .hbm, ⟨1, _⟩ => ⟨S2048x512, .f32⟩
  | .hbm, ⟨2, _⟩ => ⟨S2048, .f32⟩
  | .hbm, ⟨3, _⟩ => ⟨S16384x512, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S2048x512, .f32⟩
  | .hbm, ⟨8, _⟩ => ⟨S_, .f32⟩
  | .hbm, ⟨9, _⟩ => ⟨S2048, .f32⟩
  | .hbm, ⟨10, _⟩ => ⟨S16384x2048, .f32⟩
  | .hbm, ⟨11, _⟩ => ⟨S1x2048, .f32⟩
  | .hbm, ⟨12, _⟩ => ⟨S16384x2048, .f32⟩
  | .hbm, ⟨13, _⟩ => ⟨S16384x2048, .f32⟩
  | .hbm, ⟨14, _⟩ => ⟨S16384x2048, .f32⟩
  | .hbm, ⟨15, _⟩ => ⟨S_, .f32⟩
  | .hbm, ⟨16, _⟩ => ⟨S16384x2048, .f32⟩
  | .hbm, ⟨17, _⟩ => ⟨S16384x2048, .f32⟩
  | .hbm, ⟨18, _⟩ => ⟨S16384x2048, .f32⟩
  | .hbm, ⟨19, _⟩ => ⟨S1x2048, .f32⟩
  | .hbm, ⟨20, _⟩ => ⟨S1x2048, .f32⟩
  | .hbm, ⟨21, _⟩ => ⟨S16384x2048, .f32⟩
  | .hbm, ⟨22, _⟩ => ⟨S16384x2048, .f32⟩
  | .hbm, ⟨23, _⟩ => ⟨S16384x2048, .f32⟩
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩

abbrev nD : Nat := 1
abbrev τ : Topo := Topo.v7x

variable {F : FTy → Type} [FloatOps F]

class Facts₀ : Prop where
  reducesTo_S16384x512_S16384_d1 : S16384x512.ReducesTo [1] S16384
  h_S_ : 0 < S_.numel
  bcast_S16384_S16384x1_0 : S16384.BroadcastsInDim S16384x1 (![0] : Fin 1 → Fin S16384x1.rank)
  reducesTo_S2048x512_S2048_d1 : S2048x512.ReducesTo [1] S2048
  bcast_S2048_S1x2048_1 : S2048.BroadcastsInDim S1x2048 (![1] : Fin 1 → Fin S1x2048.rank)
  bcast_S16384x1_S16384x2048_0_1 : S16384x1.BroadcastsInDim S16384x2048 (![0, 1] : Fin 2 → Fin S16384x2048.rank)
  bcast_S1x2048_S16384x2048_0_1 : S1x2048.BroadcastsInDim S16384x2048 (![0, 1] : Fin 2 → Fin S16384x2048.rank)
  bcast_S_S16384x2048 : S_.BroadcastsInDim S16384x2048 (![] : Fin 0 → Fin S16384x2048.rank)
  dot_S16384x512_S2048x512_S16384x2048_1_1_0_0_n_n_wf : DotDims.WF S16384x512 S2048x512 S16384x2048 [1] [1] [0] [0] [] []

variable [Facts₀]

def dot_S16384x512_S2048x512_S16384x2048_1_1_0_0_n_n : DotDims S16384x512 S2048x512 S16384x2048 where
  lhsContracting := [1]
  rhsContracting := [1]
  lhsNonContracting := [0]
  rhsNonContracting := [0]
  lhsBatch := []
  rhsBatch := []
  wf := dot_S16384x512_S2048x512_S16384x2048_1_1_0_0_n_n_wf

class Facts : Prop extends Facts₀ where

variable [Facts]
-- ==== Proof.Distance.lean ====
/-
  The squared distance between a row of `x` and a row of `centers`, in the expanded form both programs compute
  on the extended reals,  (‖x_b‖² + ‖c_q‖²) − 2·⟨x_b, c_q⟩,  and the radial basis value  exp(−β_q · distance),
  once as it stands and once with the distance clamped below at zero.

  For REAL entries the expanded form is the sum over the features of (x_bk − c_qk)², a sum of squares: it is
  nonnegative, so the clamp changes nothing. The restriction to real entries is needed: at an infinite entry the
  expanded form can read ⊤ + ⊥ = ⊥, which the clamp would move to 0.

  The two float words whose values matter are read here once: `0x40000000` is the real 2 (it is the factor of the
  cross term, and the identity above needs its value), and `0x7F800000` is +∞ (the bound an entry's absolute value
  is compared with when an input is required to be finite).
-/
import Idealize.ShloMosaic.PureOps.Ideal
import Idealize.ShloMosaic.PureOps.Ideal.Laws
import Idealize.ShloMosaic.Lib.ValueIdx

noncomputable section

namespace Cert.Rbf

open Idealize.ShloMosaic Idealize.ShloMosaic.ValueIdx

/-! ## The two words -/

/-- The f32 word `0x40000000` denotes the real number 2. -/
theorem word_two : Ideal.ofBits .f32 0x40000000#32 = ((2 : ℝ) : EReal) := by
  simp [Ideal.ofBits, Ideal.ieee, -EReal.coe_mul]; norm_num

/-- The f32 word `0x7F800000` denotes +∞. -/
theorem word_inf : Ideal.ofBits .f32 0x7F800000#32 = (⊤ : EReal) := by
  simp [Ideal.ofBits, Ideal.ieee]

/-! ## The functions -/

/-- ‖x_b‖²: the squares of row `b` of `x`, summed over the 512 features. -/
def xNormSq (x : (⟨2, ![16384, 512]⟩ : Shape).Idx → EReal) (b : Fin 16384) : EReal :=
  ∑ k : Fin 512, x (ix2 b k) * x (ix2 b k)

/-- ‖c_q‖²: the squares of row `q` of `centers`, summed over the 512 features. -/
def cNormSq (c : (⟨2, ![2048, 512]⟩ : Shape).Idx → EReal) (q : Fin 2048) : EReal :=
  ∑ k : Fin 512, c (ix2 q k) * c (ix2 q k)

/-- ⟨x_b, c_q⟩: the inner product of row `b` of `x` with row `q` of `centers`. -/
def inner (x : (⟨2, ![16384, 512]⟩ : Shape).Idx → EReal) (c : (⟨2, ![2048, 512]⟩ : Shape).Idx → EReal)
    (b : Fin 16384) (q : Fin 2048) : EReal :=
  ∑ k : Fin 512, x (ix2 b k) * c (ix2 q k)

/-- The squared distance in expanded form, the factor 2 spelt as its f32 word. -/
def sqDist (x : (⟨2, ![16384, 512]⟩ : Shape).Idx → EReal) (c : (⟨2, ![2048, 512]⟩ : Shape).Idx → EReal)
    (b : Fin 16384) (q : Fin 2048) : EReal :=
  (xNormSq x b + cNormSq c q) - Ideal.ofBits .f32 0x40000000#32 * inner x c b q

/-- exp(−β_q · distance) at row `b`, centre `q`. -/
def rbfAt (x : (⟨2, ![16384, 512]⟩ : Shape).Idx → EReal) (c : (⟨2, ![2048, 512]⟩ : Shape).Idx → EReal)
    (β : (⟨1, ![2048]⟩ : Shape).Idx → EReal) (b : Fin 16384) (q : Fin 2048) : EReal :=
  Ideal.exp (-(β (ix1 q)) * sqDist x c b q)

/-- The same with the distance clamped below at zero, and −β_q written 0 − β_q. -/
def rbfClampedAt (x : (⟨2, ![16384, 512]⟩ : Shape).Idx → EReal) (c : (⟨2, ![2048, 512]⟩ : Shape).Idx → EReal)
    (β : (⟨1, ![2048]⟩ : Shape).Idx → EReal) (b : Fin 16384) (q : Fin 2048) : EReal :=
  Ideal.exp ((0 - β (ix1 q)) * max (sqDist x c b q) 0)

/-- The whole [16384, 2048] array of radial basis values. -/
def rbf (x : (⟨2, ![16384, 512]⟩ : Shape).Idx → EReal) (c : (⟨2, ![2048, 512]⟩ : Shape).Idx → EReal)
    (β : (⟨1, ![2048]⟩ : Shape).Idx → EReal) : (⟨2, ![16384, 2048]⟩ : Shape).Idx → EReal :=
  fun i => rbfAt x c β (i 0) (i 1)

/-- The whole array with the clamp. -/
def rbfClamped (x : (⟨2, ![16384, 512]⟩ : Shape).Idx → EReal) (c : (⟨2, ![2048, 512]⟩ : Shape).Idx → EReal)
    (β : (⟨1, ![2048]⟩ : Shape).Idx → EReal) : (⟨2, ![16384, 2048]⟩ : Shape).Idx → EReal :=
  fun i => rbfClampedAt x c β (i 0) (i 1)

/-! ## The clamp is the identity on real entries -/

/-- A finite sum of reals, read in the extended reals, is the sum of the readings. -/
theorem coe_sum {ι : Type} (s : Finset ι) (f : ι → ℝ) :
    ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

/-- On real entries the expanded form is the sum of the squared differences. -/
theorem sqDist_of_real (xr : (⟨2, ![16384, 512]⟩ : Shape).Idx → ℝ) (cr : (⟨2, ![2048, 512]⟩ : Shape).Idx → ℝ)
    (b : Fin 16384) (q : Fin 2048) :
    sqDist (fun i => (xr i : EReal)) (fun i => (cr i : EReal)) b q
      = ((∑ k : Fin 512, (xr (ix2 b k) - cr (ix2 q k)) ^ 2 : ℝ) : EReal) := by
  unfold sqDist xNormSq cNormSq inner
  rw [word_two]
  simp only [← EReal.coe_mul, ← coe_sum, ← EReal.coe_add, ← EReal.coe_sub]
  refine congrArg (fun r : ℝ => (r : EReal)) ?_
  rw [Finset.mul_sum, ← Finset.sum_add_distrib, ← Finset.sum_sub_distrib]
  exact Finset.sum_congr rfl fun k _ => by ring

/-- So on real entries it is nonnegative, and clamping it at zero returns it. -/
theorem max_sqDist_of_real (xr : (⟨2, ![16384, 512]⟩ : Shape).Idx → ℝ) (cr : (⟨2, ![2048, 512]⟩ : Shape).Idx → ℝ)
    (b : Fin 16384) (q : Fin 2048) :
    max (sqDist (fun i => (xr i : EReal)) (fun i => (cr i : EReal)) b q) 0
      = sqDist (fun i => (xr i : EReal)) (fun i => (cr i : EReal)) b q := by
  rw [sqDist_of_real]
  exact max_eq_left (EReal.coe_nonneg.mpr (Finset.sum_nonneg fun k _ => sq_nonneg _))

/-- When every entry of `x` and of `centers` is a real number, the clamped array is the unclamped one
    (β may be anything: 0 − β = −β on all extended reals). -/
theorem rbfClamped_eq_rbf (x : (⟨2, ![16384, 512]⟩ : Shape).Idx → EReal) (c : (⟨2, ![2048, 512]⟩ : Shape).Idx → EReal)
    (β : (⟨1, ![2048]⟩ : Shape).Idx → EReal) (hx : ∀ i, ∃ r : ℝ, x i = (r : EReal)) (hc : ∀ i, ∃ r : ℝ, c i = (r : EReal)) :
    rbfClamped x c β = rbf x c β := by
  choose xr hxr using hx
  choose cr hcr using hc
  obtain rfl : x = fun i => (xr i : EReal) := funext hxr
  obtain rfl : c = fun i => (cr i : EReal) := funext hcr
  funext i
  obtain ⟨b, q, rfl⟩ : ∃ (b : Fin 16384) (q : Fin 2048), i = ix2 b q := ⟨i 0, i 1, eq_ix2 i⟩
  show Ideal.exp ((0 - β (ix1 q)) * max (sqDist _ _ b q) 0) = Ideal.exp (-(β (ix1 q)) * sqDist _ _ b q)
  rw [max_sqDist_of_real, zero_sub]

end Cert.Rbf

end
-- ==== Proof.RefRead.lean ====
/-
  The reference's result, read at row `b` and centre `q`, is the radial basis value without a clamp.

  Stage by stage the reference computes  exp( (−β_q) · ( (0 + Σ_k x_bk²  +  (0 + Σ_k c_qk²)) − 2 · Σ_k x_bk c_qk ) ):
  the two row sums start from the zero word, which is the real 0 and drops out, the broadcasts only re-index
  (row sums along the other axis, β along the rows), and the contraction of the matrix product over the feature
  axis of both operands is the inner product of row `b` of `x` with row `q` of `centers`.
-/
import proofs.«165898_j24137716204066_2_alg».proof.Proof.Gen.ReferenceIdeal.Read
import proofs.«165898_j24137716204066_2_alg».proof.Proof.Distance

noncomputable section

namespace Cert.Rbf.Reference

open Cert.ReferenceIdeal Cert.ReferenceIdeal.Gen Cert.ReferenceIdeal.Read
open Idealize.ShloMosaic Idealize.ShloMosaic.ValueIdx Cert.Rbf

/-- The last stage at `(b, q)`. -/
theorem stage_apply (x : (⟨S16384x512, .f32⟩ : BufTy).Contents (Elt Ideal)) (c : (⟨S2048x512, .f32⟩ : BufTy).Contents (Elt Ideal))
    (β : (⟨S2048, .f32⟩ : BufTy).Contents (Elt Ideal)) (b : Fin 16384) (q : Fin 2048) :
    val_main_v17 (F := Ideal) x c β (ix2 b q) = rbfAt x c β b q := by
  -- where each re-indexing stage reads its operand, for the output index (b, q)
  have eβ : idx_main_v13 (idx_main_v15 (ix2 b q)) = ix1 q :=
    funext fun a => Fin.ext (by match a with | ⟨0, _⟩ => rfl)
  have ex : ∀ k : Fin 512, idx_main_v1 (idx_main_v2 (idx_main_v7 (ix2 b q))) k = ix2 b k := fun k =>
    funext fun a => Fin.ext (by match a with | ⟨0, _⟩ => rfl | ⟨1, _⟩ => rfl)
  have ec : ∀ k : Fin 512, idx_main_v4 (idx_main_v6 (idx_main_v8 (ix2 b q))) k = ix2 q k := fun k =>
    funext fun a => Fin.ext (by match a with | ⟨0, _⟩ => rfl | ⟨1, _⟩ => rfl)
  have el : ∀ k : Fin 512, lidx_main_v5 (ix2 b q) k = ix2 b k := fun k =>
    funext fun a => Fin.ext (by match a with | ⟨0, _⟩ => rfl | ⟨1, _⟩ => rfl)
  have er : ∀ k : Fin 512, ridx_main_v5 (ix2 b q) k = ix2 q k := fun k =>
    funext fun a => Fin.ext (by match a with | ⟨0, _⟩ => rfl | ⟨1, _⟩ => rfl)
  rw [val_main_v17_apply, val_main_v16_apply, val_main_v15_apply, val_main_v14_apply, val_main_v13_apply, val_main_v12_apply,
    val_main_v9_apply, val_main_v7_apply, val_main_v2_apply, val_main_v1_apply, val_main_v8_apply, val_main_v6_apply,
    val_main_v4_apply, val_main_v11_apply, val_main_v10_apply, val_main_cst_1_apply, val_main_v5_apply]
  unfold rbfAt sqDist xNormSq cNormSq inner
  simp only [val_main_v0_apply, val_main_v3_apply, val_main_cst_apply, val_main_cst_0_apply, eβ, ex, ec, el, er,
    Ideal.hostUnary_exp_def, Ideal.mulf_def, Ideal.subf_def, Ideal.addf_def, Ideal.hostNegf_def, Ideal.negf_def,
    Ideal.ofBits_def, Ideal.ofBits_zero_f32, zero_add]

/-- The reference's whole result array is the unclamped radial basis array. -/
theorem stage_eq_rbf (x : (⟨S16384x512, .f32⟩ : BufTy).Contents (Elt Ideal)) (c : (⟨S2048x512, .f32⟩ : BufTy).Contents (Elt Ideal))
    (β : (⟨S2048, .f32⟩ : BufTy).Contents (Elt Ideal)) :
    val_main_v17 (F := Ideal) x c β = rbf x c β := by
  funext i
  obtain ⟨b, q, rfl⟩ : ∃ (b : Fin 16384) (q : Fin 2048), i = ix2 b q := ⟨i 0, i 1, eq_ix2 i⟩
  exact stage_apply x c β b q

end Cert.Rbf.Reference

end
-- ==== Proof.Payload.lean ====
/-
  The kernel body's arithmetic at row `p`, column `q` of a [512, 2048] output block, as a function of the four
  blocks it loads: 512 rows of `x` (`v0`), the transposed centres (`v1`, features × centres), the row of β
  (`v3`) and the row of the centres' squared norms (`v5`):

      exp( (0 − β_q) · max( (Σ_k v0[p,k]²  +  v5[0,q])  −  2 · Σ_k v0[p,k] · v1[k,q] ,  0 ) ).

  Everything in the body is pointwise except four pieces: the row of β with its sign changed, spread over the
  rows; the lane sum of the squares, cast to a column and spread over the columns; the row of squared norms
  spread over the rows; and the matrix product, which contracts the feature axis (the narrowing of its
  operands to bf16 is the identity on exact values, and it accumulates into zero).
-/
import proofs.«165898_j24137716204066_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.Rbf.Body

open Cert.KernelIdeal Cert.KernelIdeal.Gen
open Idealize.ShloMosaic Idealize.ShloMosaic.ValueIdx

/-! ## Two layout readings: a vector as a column, a column spread over the columns -/

/-- An `[a]` vector cast to the column `[a, 1]` reads, at `(i, u)`, the vector at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(i, j)`, the column at `i`. -/
theorem broadcastTo_a1_ab_apply {α : Type} {a b : ℕ} (v : (⟨2, ![a, 1]⟩ : Shape).Idx → α)
    (h : (⟨2, ![a, 1]⟩ : Shape).Broadcasts ⟨2, ![a, b]⟩) (i : Fin a) (j : Fin b) :
    broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

/-! ## The four pieces that are not pointwise -/

/-- The row of β subtracted from zero and spread over the rows: at `(p, q)` it is `0 − β_q`. -/
theorem negRow_apply (v3 : FVec Ideal S1x2048 .f32) (hc : S1x2048.ShapeCasts S1x2048) (hb : S1x2048.Broadcasts S512x2048)
    (p : Fin 512) (q : Fin 2048) :
    broadcastTo S512x2048 (subf (broadcast S1x2048 (Scalar.ofBits (F := Ideal) .f32 0x00000000#32)) (shapeCast S1x2048 v3 hc)) hb (ix2 p q)
      = 0 - v3 (ix2 (0 : Fin 1) q) := by
  refine (broadcastTo_1b_ab_apply _ hb p q).trans ?_
  show Ideal.ofBits .f32 0x00000000#32 - shapeCast S1x2048 v3 hc (ix2 (0 : Fin 1) q) = _
  rw [shapeCast_self, Ideal.ofBits_zero_f32]

/-- The lane sum of the squares, as a column spread over the columns: at `(p, q)` it is Σ_k v0[p,k]². -/
theorem rowSq_apply (v0 : FVec Ideal S512x512 .f32) (hred : S512x512.Reduces [1] S512) (hφ : FKind.Formats .f32)
    (hacc : (0x00000000#32 : BitVec FTy.f32.bits) = FKind.add.neutral .f32 hφ) (hc : S512.ShapeCasts S512x1)
    (hb : S512x1.Broadcasts S512x2048) (p : Fin 512) (q : Fin 2048) :
    broadcastTo S512x2048 (shapeCast S512x1 (multiReduction .add [1] S512 (mulf v0 v0) 0x00000000#32 hred hφ hacc) hc) hb (ix2 p q)
      = ∑ k : Fin 512, v0 (ix2 p k) * v0 (ix2 p k) := by
  refine (broadcastTo_a1_ab_apply _ hb p q).trans ((shapeCast_a_a1_apply _ hc p 0).trans
    ((Ideal.multiReduction_add_single (mulf v0 v0) _ hred hφ hacc (ix1 p)).trans ?_))
  refine Finset.sum_congr rfl fun k _ => ?_
  have e : hred.lift (ix1 p) k = ix2 p k :=
    funext fun a => Fin.ext (by match a with | ⟨0, _⟩ => rfl | ⟨1, _⟩ => rfl)
  exact congrArg (fun j => v0 j * v0 j) e

/-- The row of squared norms spread over the rows: at `(p, q)` it is the row at `q`. -/
theorem normRow_apply (v5 : FVec Ideal S1x2048 .f32) (hc : S1x2048.ShapeCasts S1x2048) (hb : S1x2048.Broadcasts S512x2048)
    (p : Fin 512) (q : Fin 2048) :
    broadcastTo S512x2048 (shapeCast S1x2048 v5 hc) hb (ix2 p q) = v5 (ix2 (0 : Fin 1) q) := by
  refine (broadcastTo_1b_ab_apply _ hb p q).trans ?_
  rw [shapeCast_self]

/-- The matrix product's dimension numbers: rows × features times features × centres. -/
abbrev KD : DotDims S512x512 S512x2048 S512x2048 := dot_S512x512_S512x2048_S512x2048_1_0_0_1_n_n

theorem lhs_row (i : S512x2048.Idx) (k : KD.contr.Idx) : (KD.lhsIdx i k 0).val = (i 0).val := by
  unfold DotDims.lhsIdx
  rw [dif_neg (show ¬(0 : Fin S512x512.rank) ∈ KD.lhsBatch by decide),
    dif_pos (show (0 : Fin S512x512.rank) ∈ KD.lhsNonContracting by decide)]
  rfl
theorem lhs_feature (i : S512x2048.Idx) (k : KD.contr.Idx) : (KD.lhsIdx i k 1).val = (k ⟨0, by decide⟩).val :=
  KD.lhsIdx_val_of_single rfl i k
theorem rhs_feature (i : S512x2048.Idx) (k : KD.contr.Idx) : (KD.rhsIdx i k 0).val = (k ⟨0, by decide⟩).val :=
  KD.rhsIdx_val_of_single rfl i k
theorem rhs_col (i : S512x2048.Idx) (k : KD.contr.Idx) : (KD.rhsIdx i k 1).val = (i 1).val := by
  unfold DotDims.rhsIdx
  rw [dif_neg (show ¬(1 : Fin S512x2048.rank) ∈ KD.rhsBatch by decide),
    dif_pos (show (1 : Fin S512x2048.rank) ∈ KD.rhsNonContracting by decide)]
  rfl

/-- The matrix product into zero, its operands narrowed to bf16: at `(p, q)` it is Σ_k v0[p,k] · v1[k,q]. -/
theorem cross_apply (v0 : FVec Ideal S512x512 .f32) (v1 : FVec Ideal S512x2048 .f32) (hc : S512x2048.ShapeCasts S512x2048)
    (hl : FTy.bf16.bits < FTy.f32.bits) (p : Fin 512) (q : Fin 2048) :
    matmul KD none (truncf .bf16 v0 hl) (truncf .bf16 (shapeCast S512x2048 v1 hc) hl) (constant S512x2048 .f32 0x00000000#32) (ix2 p q)
      = ∑ k : Fin 512, v0 (ix2 p k) * v1 (ix2 k q) := by
  refine (Ideal.matmul_constant_zero_apply KD none _ _ (ix2 p q)).trans ?_
  rw [← Equiv.sum_comp (contrEquiv1 KD 512 rfl rfl).symm]
  refine Finset.sum_congr rfl fun k _ => ?_
  have hk := contrEquiv1_symm_val KD 512 rfl rfl k
  have el : KD.lhsIdx (ix2 p q) ((contrEquiv1 KD 512 rfl rfl).symm k) = ix2 p k := funext fun a => Fin.ext (by
    match a with
    | ⟨0, _⟩ => exact lhs_row _ _
    | ⟨1, _⟩ => exact (lhs_feature _ _).trans hk)
  have er : KD.rhsIdx (ix2 p q) ((contrEquiv1 KD 512 rfl rfl).symm k) = ix2 k q := funext fun a => Fin.ext (by
    match a with
    | ⟨0, _⟩ => exact (rhs_feature _ _).trans hk
    | ⟨1, _⟩ => exact rhs_col _ _)
  show v0 (KD.lhsIdx _ _) * shapeCast S512x2048 v1 hc (KD.rhsIdx _ _) = _
  rw [el, er, shapeCast_self]

/-! ## The body at an index -/

/-- The body's value at row `p`, column `q` of the block, from the four loaded blocks. -/
def bodyAt (v0 : FVec Ideal S512x512 .f32) (v1 : FVec Ideal S512x2048 .f32) (v3 v5 : FVec Ideal S1x2048 .f32)
    (p : Fin 512) (q : Fin 2048) : EReal :=
  Ideal.exp ((0 - v3 (ix2 (0 : Fin 1) q)) *
    max ((∑ k : Fin 512, v0 (ix2 p k) * v0 (ix2 p k) + v5 (ix2 (0 : Fin 1) q))
      - Ideal.ofBits .f32 0x40000000#32 * ∑ k : Fin 512, v0 (ix2 p k) * v1 (ix2 k q)) 0)

/-- The stored value at `(p, q)` is `bodyAt`: the pointwise layer is read off directly, the four other pieces by
    their lemmas, and the zero word the clamp compares with is the real 0. -/
theorem pay_apply (v0 : FVec Ideal S512x512 .f32) (v1 : FVec Ideal S512x2048 .f32) (v3 v5 : FVec Ideal S1x2048 .f32)
    (p : Fin 512) (q : Fin 2048) :
    k0_pay1 (F := Ideal) v0 v1 v3 v5 (ix2 p q) = bodyAt v0 v1 v3 v5 p q := by
  have hA := negRow_apply v3 shapeCasts_S1x2048_S1x2048 broadcasts_S1x2048_S512x2048 p q
  have hB := rowSq_apply v0 reduces_S512x512_S512 (.inl rfl) rfl shapeCasts_S512_S512x1 broadcasts_S512x1_S512x2048 p q
  have hC := normRow_apply v5 shapeCasts_S1x2048_S1x2048 broadcasts_S1x2048_S512x2048 p q
  have hD := cross_apply v0 v1 shapeCasts_S512x2048_S512x2048 bitsLt_bf16_f32 p q
  unfold k0_pay1 bodyAt
  dsimp only
  show Ideal.exp (_ * max ((_ + _) - Ideal.ofBits .f32 0x40000000#32 * _) (Ideal.ofBits .f32 0x00000000#32)) = _
  rw [hA, hB, hC, hD, Ideal.ofBits_zero_f32]

end Cert.Rbf.Body

end
-- ==== Proof.HostArrays.lean ====
/-
  What the region finds in the three arrays the host writes before it, read at an index.

  Before the kernel is launched the host transposes `centers` to features × centres, reshapes β to a row, and
  reduces the squares of `centers` over the feature axis (from the zero word, the real 0) into a row. So, with
  `C` the launch contents of `centers` and `B` those of β:
    the transposed array at (k, q) is C[q, k];  the β row at (0, q) is B[q];
    the squared-norm row at (0, q) is Σ_k C[q, k]², the squared norm of centre `q`.
-/
import proofs.«165898_j24137716204066_2_alg».proof.Proof.Gen.KernelIdeal.Frame
import proofs.«165898_j24137716204066_2_alg».proof.Proof.Distance
import Idealize.ShloMosaic.Lib.ValueIdx
import Idealize.ShloMosaic.Lib.ValueLayout
import Idealize.ShloMosaic.Lib.StableHlo.Run
import Idealize.ShloMosaic.PureOps.Ideal.Laws

noncomputable section

namespace Cert.Rbf.Entry

open Cert.KernelIdeal Cert.KernelIdeal.Gen
open Idealize.ShloMosaic Idealize.ShloMosaic.TcCoe Idealize.ShloMosaic.ValueIdx Idealize.SL.Sem Cert.Rbf

variable (m : (ℓ : Loc nD τ sig) → Buf (Elt Ideal) ℓ)

/-! ## The three arrays as terms of the launch contents -/

theorem centresT_eq (c : Dev nD) :
    (V m c main_v0 : S512x2048.Idx → EReal)
      = transpose S512x2048 [1, 0] (m ((c : Thread nD τ).loc main_arg1) : S2048x512.Idx → EReal) transposes_S2048x512_S512x2048_1_0 := by
  dsimp only [V, hostOps0]; after_results <;> rfl

theorem betaRow_eq (c : Dev nD) :
    (V m c main_v1 : S1x2048.Idx → EReal)
      = shapeCast S1x2048 (m ((c : Thread nD τ).loc main_arg2) : S2048.Idx → EReal) shapeCasts_S2048_S1x2048 := by
  dsimp only [V, hostOps0]; after_results <;> rfl

theorem normRow_eq (c : Dev nD) :
    (V m c main_v4 : S1x2048.Idx → EReal)
      = shapeCast S1x2048 (Host.reduceAdd (F := Ideal)
          (mulf (m ((c : Thread nD τ).loc main_arg1) : FVec Ideal S2048x512 .f32) (m ((c : Thread nD τ).loc main_arg1)))
          (constant (F := Ideal) S_ .f32 0x00000000#32) reducesTo_S2048x512_S2048_d1 h_S_) shapeCasts_S2048_S1x2048 := by
  dsimp only [V, hostOps0]; after_results <;> rfl

/-! ## Read at an index -/

/-- The host's sum over the feature axis from the zero word, at centre `q`: the plain sum of the row. -/
theorem hostRowSum_apply (y : FVec Ideal S2048x512 .f32) (q : Fin 2048) :
    Host.reduceAdd (F := Ideal) y (constant (F := Ideal) S_ .f32 0x00000000#32) reducesTo_S2048x512_S2048_d1 h_S_ (ix1 q)
      = ∑ k : Fin 512, y (ix2 q k) := by
  simp only [Host.reduceAdd, Ideal.hostReduceAdd_def]
  rw [Ideal.hostReduceAdd_single reducesTo_S2048x512_S2048_d1 (by decide)]
  show Ideal.ofBits .f32 0x00000000#32 + _ = _
  rw [Ideal.ofBits_zero_f32, zero_add]
  refine Finset.sum_congr rfl fun k _ => ?_
  exact congrArg y (funext fun a => Fin.ext (by match a with | ⟨0, _⟩ => rfl | ⟨1, _⟩ => rfl))

/-- The transposed centres at (k, q) are the centres at (q, k). -/
theorem centresT_apply (c : Dev nD) (k : Fin 512) (q : Fin 2048) :
    (V m c main_v0 : S512x2048.Idx → EReal) (ix2 k q)
      = (m ((c : Thread nD τ).loc main_arg1) : S2048x512.Idx → EReal) (ix2 q k) :=
  (congrFun (centresT_eq m c) (ix2 k q)).trans (transpose_ix2_apply _ _ k q)

/-- The β row at (0, q) is β at `q`. -/
theorem betaRow_apply (c : Dev nD) (q : Fin 2048) :
    (V m c main_v1 : S1x2048.Idx → EReal) (ix2 (0 : Fin 1) q)
      = (m ((c : Thread nD τ).loc main_arg2) : S2048.Idx → EReal) (ix1 q) :=
  (congrFun (betaRow_eq m c) (ix2 (0 : Fin 1) q)).trans (shapeCast_a_1a_apply _ _ 0 q)

/-- The squared-norm row at (0, q) is the squared norm of centre `q`. -/
theorem normRow_apply (c : Dev nD) (q : Fin 2048) :
    (V m c main_v4 : S1x2048.Idx → EReal) (ix2 (0 : Fin 1) q)
      = cNormSq (m ((c : Thread nD τ).loc main_arg1)) q :=
  (congrFun (normRow_eq m c) (ix2 (0 : Fin 1) q)).trans
    ((shapeCast_a_1a_apply _ _ 0 q).trans (hostRowSum_apply _ q))

end Cert.Rbf.Entry

end
-- ==== Proof.KernelValue.lean ====
/-
  The kernel's result array is the clamped radial basis array of the launch contents.

  The grid has 32 points. At point `t` the body reads rows 512·t … 512·t + 511 of `x` and the whole of the three
  host-written arrays, and writes rows 512·t … 512·t + 511 of the result. At row `p`, column `q` of that block
  the body's value depends on row 512·t + p of `x`, on column `q` of the transposed centres (row `q` of
  `centers`), on β at `q` and on the squared norm of centre `q`: it is the clamped radial basis value at
  (512·t + p, q). The 32 blocks tile the result, row `r` lying in the block of point r / 512.
-/
import proofs.«165898_j24137716204066_2_alg».proof.Proof.Gen.KernelIdeal.Value
import proofs.«165898_j24137716204066_2_alg».proof.Proof.Payload
import proofs.«165898_j24137716204066_2_alg».proof.Proof.HostArrays
import proofs.«165898_j24137716204066_2_alg».proof.Proof.Distance
import Idealize.ShloMosaic.Lib.Pipeline.Value

noncomputable section

namespace Cert.Rbf.Kernel

open Cert.KernelIdeal Cert.KernelIdeal.Gen Cert.KernelIdeal.Value
open Idealize.ShloMosaic Idealize.ShloMosaic.TcCoe Idealize.ShloMosaic.ValueIdx Idealize.SL.Sem Cert.Rbf
open Idealize.ShloMosaic.Pipeline (Dat)

variable (m : (ℓ : Loc nD τ sig) → Buf (Elt Ideal) ℓ) (ρ : Dev nD → PrngReg)

theorem zero_off : (![0, 0] : Fin 2 → Nat) = fun _ => 0 := funext fun a => by fin_cases a <;> rfl

/-- Where each window's block sits at point `t`: the blocks of `x` and of the result at block row `t`, the three
    host-written arrays whole (decided over the 32 points). -/
theorem block_indices : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- One entry of one block: if row `y 0` of the `x` block is row `i 0` of `X`, the second block is `C` transposed,
    the two rows are `B` and the squared norms of `C`, and `i` and `y` name the same column, then the body's
    value at `y` is the clamped radial basis value of `X`, `C`, `B` at `i`. -/
theorem point_value (X : S16384x512.Idx → EReal) (C : S2048x512.Idx → EReal) (B : S2048.Idx → EReal)
    (v0 : FVec Ideal S512x512 .f32) (v1 : FVec Ideal S512x2048 .f32) (v3 v5 : FVec Ideal S1x2048 .f32)
    (y : S512x2048.Idx) (i : S16384x2048.Idx)
    (hx : ∀ k : Fin 512, v0 (ix2 (y 0) k) = X (ix2 (i 0) k))
    (hc : ∀ (k : Fin 512) (q : Fin 2048), v1 (ix2 k q) = C (ix2 q k))
    (hβ : ∀ q : Fin 2048, v3 (ix2 (0 : Fin 1) q) = B (ix1 q))
    (hn : ∀ q : Fin 2048, v5 (ix2 (0 : Fin 1) q) = cNormSq C q)
    (hcol : (i 1).val = (y 1).val) :
    k0_pay1 (F := Ideal) v0 v1 v3 v5 y = rbfClamped X C B i := by
  obtain ⟨p, q, rfl⟩ : ∃ (p : Fin 512) (q : Fin 2048), y = ix2 p q := ⟨y 0, y 1, eq_ix2 y⟩
  obtain ⟨b, q', rfl⟩ : ∃ (b : Fin 16384) (q' : Fin 2048), i = ix2 b q' := ⟨i 0, i 1, eq_ix2 i⟩
  have hq : q' = q := Fin.ext hcol
  subst hq
  have hx' : ∀ k : Fin 512, v0 (ix2 p k) = X (ix2 b k) := hx
  rw [Body.pay_apply]
  show Body.bodyAt v0 v1 v3 v5 p _ = rbfClampedAt X C B b _
  unfold Body.bodyAt rbfClampedAt sqDist xNormSq inner
  simp only [hx', hc, hβ, hn]

/-- WHAT POINT `t` WRITES BACK is block `t` of the clamped radial basis array of the launch contents. -/
theorem flushed_eq (c : Dev nD) (t : Fin cfg0.N) :
    (dats m 0 c).flushed 4 t = ((cfg0.win 4).blk t).view.read (Elt Ideal)
      (rbfClamped (m ((c : Thread nD τ).loc main_arg0)) (m ((c : Thread nD τ).loc main_arg1)) (m ((c : Thread nD τ).loc main_arg2))) := by
  rw [flushed4]
  unfold out0_4
  rw [View.canon_unit_zero zero_off]
  simp only [View.ld_unit_zero (S := S512x512) zero_off, View.ld_unit_zero (S := S512x2048) zero_off,
    View.ld_unit_zero (S := S1x2048) zero_off]
  obtain ⟨e00, e01, e10, e11, e20, e21, e30, e31, e40, e41⟩ := block_indices t
  funext j
  refine point_value _ _ _ (iblk m c 0 t) (iblk m c 1 t) (iblk m c 2 t) (iblk m c 3 t) j (((cfg0.win 4).blk t).view.emb j)
    ?_ ?_ ?_ ?_ ?_
  · -- the rows of the `x` block are the rows of `x` the result block names
    intro k
    show V m c main_arg0 (((cfg0.win 0).blk t).view.emb (ix2 (j 0) k)) = _
    rw [V_main_arg0]
    refine congrArg _ (funext fun a => Fin.ext ?_)
    match a with
    | ⟨0, _⟩ =>
      show win0_0.index t (0 : Fin 2) * 512 + 1 * (j 0).val = win0_4.index t (0 : Fin 2) * 512 + 1 * (j 0).val
      omega
    | ⟨1, _⟩ =>
      show win0_0.index t (1 : Fin 2) * 512 + 1 * k.val = k.val
      omega
  · -- the second block is the whole transposed array
    intro k q
    show V m c main_v0 (((cfg0.win 1).blk t).view.emb (ix2 k q)) = _
    refine Eq.trans (congrArg _ (funext fun a => Fin.ext ?_)) (Entry.centresT_apply m c k q)
    match a with
    | ⟨0, _⟩ => show win0_1.index t (0 : Fin 2) * 512 + 1 * k.val = k.val; omega
    | ⟨1, _⟩ => show win0_1.index t (1 : Fin 2) * 2048 + 1 * q.val = q.val; omega
  · -- the third is the whole β row
    intro q
    show V m c main_v1 (((cfg0.win 2).blk t).view.emb (ix2 (0 : Fin 1) q)) = _
    refine Eq.trans (congrArg _ (funext fun a => Fin.ext ?_)) (Entry.betaRow_apply m c q)
    match a with
    | ⟨0, _⟩ => show win0_2.index t (0 : Fin 2) * 1 + 1 * 0 = 0; omega
    | ⟨1, _⟩ => show win0_2.index t (1 : Fin 2) * 2048 + 1 * q.val = q.val; omega
  · -- the fourth is the whole row of squared norms
    intro q
    show V m c main_v4 (((cfg0.win 3).blk t).view.emb (ix2 (0 : Fin 1) q)) = _
    refine Eq.trans (congrArg _ (funext fun a => Fin.ext ?_)) (Entry.normRow_apply m c q)
    match a with
    | ⟨0, _⟩ => show win0_3.index t (0 : Fin 2) * 1 + 1 * 0 = 0; omega
    | ⟨1, _⟩ => show win0_3.index t (1 : Fin 2) * 2048 + 1 * q.val = q.val; omega
  · -- the result block keeps the column
    show win0_4.index t (1 : Fin 2) * 2048 + 1 * (j 1).val = (j 1).val
    omega

/-- An index of the result is in point `t`'s block iff each coordinate is in the block's range on its axis. -/
theorem mem_blk (t : Fin cfg0.N) (i : S16384x2048.Idx) :
    i ∈ ((cfg0.win 4).blk t).view.set ↔ ∀ a : Fin 2, win0_4.index t a * S512x2048.size a ≤ (i a).val
      ∧ (i a).val < win0_4.index t a * S512x2048.size a + S512x2048.size a := by
  show i ∈ ((View.whole main_v5).slice (win0_4.rect t)).set ↔ _
  rw [View.set_slice_whole, Rect.mem_set_unit]
  exact Iff.rfl

/-- Every index of the result is in some point's block: row `r` in the block of point r / 512. -/
theorem cover (i : S16384x2048.Idx) :
    ∃ t : Fin cfg0.N, (cfg0.win 4).flush t = true ∧ i ∈ ((cfg0.win 4).blk t).view.set := by
  have hi0 : (i 0).val < 16384 := (i 0).isLt
  have hi1 : (i 1).val < 2048 := (i 1).isLt
  have hN : cfg0.N = 32 := N_0
  obtain ⟨t, ht⟩ : ∃ t : Fin cfg0.N, t.val = (i 0).val / 512 := ⟨⟨(i 0).val / 512, by rw [hN]; omega⟩, rfl⟩
  obtain ⟨_, _, _, _, _, _, _, _, e40, e41⟩ := block_indices t
  refine ⟨t, flush0_4 t, ?_⟩
  rw [mem_blk]
  intro a
  match a with
  | ⟨0, _⟩ =>
    show win0_4.index t (0 : Fin 2) * 512 ≤ (i 0).val ∧ (i 0).val < win0_4.index t (0 : Fin 2) * 512 + 512
    omega
  | ⟨1, _⟩ =>
    show win0_4.index t (1 : Fin 2) * 2048 ≤ (i 1).val ∧ (i 1).val < win0_4.index t (1 : Fin 2) * 2048 + 2048
    omega

/-- THE RESULT ARRAY after the run is the clamped radial basis array of the launch contents. -/
theorem final (c : Dev nD) :
    (dats m 0 c).arrAt 4 cfg0.N
      = rbfClamped (m ((c : Thread nD τ).loc main_arg0)) (m ((c : Thread nD τ).loc main_arg1)) (m ((c : Thread nD τ).loc main_arg2)) :=
  (dats m 0 c).arrAt_eq_of_cover 4 _ (fun t _ => flushed_eq m c t) cover

/-- The run, read: the result at the clamped radial basis array, the arguments unchanged. -/
theorem run : θ_run defs (onTc (τ := τ) (main (F := Ideal))) ⟨m, fun _ => 0, ρ⟩ fun r => ∀ c : Dev nD,
      r.2.mem ((c : Thread nD τ).loc main_v5)
        = rbfClamped (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.Rbf.Kernel

end
-- ==== Proof.Finite.lean ====
/-
  From the precondition to real entries.

  The precondition is the conjunction, over the three inputs, of "every entry's absolute value is below +∞",
  each conjunct an and-reduction of the entrywise comparisons. If the conjunction is 1 then every comparison
  is 1; and an extended real whose absolute value max(x, −x) is below +∞ is neither +∞ nor −∞ (at either, the
  absolute value is +∞), so it is a real number. Only `x` and `centers` are needed.
-/
import proofs.«165898_j24137716204066_2_alg».proof.Pre_finite_inputs
import proofs.«165898_j24137716204066_2_alg».proof.Proof.Gen.Pre_finite_inputs
import proofs.«165898_j24137716204066_2_alg».proof.Proof.Distance
import Idealize.ShloMosaic.Lib.ReduceAll
import Idealize.ShloMosaic.Lib.ValueIdx
import Idealize.ShloMosaic.Lib.Pipeline.Value
import Idealize.ShloMosaic.PureOps.Ideal.Laws

noncomputable section

namespace Cert.Rbf.Finite

open Idealize.ShloMosaic Idealize.ShloMosaic.ValueIdx Cert.Pre_finite_inputs Cert.Rbf

/-- The rank-0 shape has one index. -/
instance : Subsingleton S_.Idx := ⟨fun a b => funext fun d => d.elim0⟩

/-- An extended real whose absolute value compares below the word of +∞ is a real number. -/
theorem real_of_abs_lt_inf (x : EReal)
    (h : FloatOps.cmpf (F := Ideal) (φ := .f32) .olt (FloatOps.hostAbsf x) (FloatOps.ofBits .f32 0x7F800000#32) = 1#1) :
    ∃ r : ℝ, x = (r : EReal) := by
  have h' : Ideal.cmp .olt (max x (-x)) (Ideal.ofBits .f32 0x7F800000#32) = 1#1 := h
  rw [word_inf] at h'
  induction x using EReal.rec with
  | bot => exfalso; simp [Ideal.cmp] at h'
  | top => exfalso; simp [Ideal.cmp] at h'
  | coe r => exact ⟨r, rfl⟩

/-- One conjunct of the precondition: if the and-reduction over all axes of `|x| < +∞` is 1, every entry of `x` is real. -/
theorem entries_real {s : Shape} {axes : List (Fin s.rank)} (x : FVec Ideal s .f32)
    (hb : S_.BroadcastsInDim s (![] : Fin 0 → Fin s.rank)) (hr : s.ReducesTo axes S_) (hu : 0 < S_.numel)
    (h : Host.reduce IntOp.andi
          (cmpf .olt (Host.absf x) (broadcastInDim s ![] hb (constant (F := Ideal) S_ .f32 0x7F800000#32)))
          (constantI S_ 1 1#1) hr hu ix0 = 1#1) :
    ∀ i, ∃ r : ℝ, x i = (r : EReal) := fun i =>
  real_of_abs_lt_inf (x i) (by
    have e := Host.reduce_andi_all _ _ hr hu ix0 h i
    have hbi : broadcastInDim s ![] hb (constant (F := Ideal) S_ .f32 0x7F800000#32) i
        = FloatOps.ofBits .f32 0x7F800000#32 :=
      broadcastInDim_apply _ hb _ i ix0 (fun a => a.elim0)
    rw [← hbi]
    exact e)

/-- Under the precondition every entry of `x` and every entry of `centers` is a real number. -/
theorem of_pre (X : FVec Ideal S16384x512 .f32) (C : FVec Ideal S2048x512 .f32) (B : FVec Ideal S2048 .f32)
    (h : Cert.Pre_finite_inputs.fn (F := Ideal) X C B = (fun _ => 1#1)) :
    (∀ i, ∃ r : ℝ, X i = (r : EReal)) ∧ (∀ i, ∃ r : ℝ, C i = (r : EReal)) := by
  have h0 := congrFun h ix0
  dsimp only [fn] at h0
  obtain ⟨h38, _⟩ := IntOp.andi_eq_one.mp h0
  obtain ⟨h3, h7⟩ := IntOp.andi_eq_one.mp h38
  exact ⟨entries_real X _ _ _ h3, entries_real C _ _ _ h7⟩

end Cert.Rbf.Finite

end
-- ==== Proof.lean ====
/-
  The radial basis layer  out[b, q] = exp(−β_q · ‖x_b − c_q‖²),  which both programs compute through the expanded
  form  ‖x_b‖² + ‖c_q‖² − 2·⟨x_b, c_q⟩  of the squared distance.

  The kernel tiles the batch axis into 32 blocks of 512 rows and keeps the transposed centres, the row of β and the
  row of the centres' squared norms whole; it takes the cross term as a matrix product whose operands are narrowed
  to bf16, and clamps the distance below at zero before the exponential. The reference does the same arithmetic on
  whole arrays, with no narrowing and no clamp. On exact values the narrowing is the identity and a matrix product
  into a zero accumulator is the plain sum of products, so the two results differ only by the clamp; and under the
  precondition — every input entry finite — the expanded form is the sum over the features of (x_bk − c_qk)², which
  is nonnegative, so the clamp is the identity. (Without finiteness it is not: at an infinite entry the expanded
  form can read ⊤ + ⊥ = ⊥.)

  Distance: the functions and that law. RefRead: the reference's result is the unclamped array. Payload: the body's
  arithmetic at one entry of a block. HostArrays: the three arrays the host writes before the launch, at an index.
  KernelValue: the kernel's result is the clamped array. Finite: real entries from the precondition.
  The idealization rewrote no operation, so nothing is owed for it beyond the kernel's own text read on exact values.
-/
import proofs.«165898_j24137716204066_2_alg».proof.Defs
import proofs.«165898_j24137716204066_2_alg».proof.Proof.Gen.Kernel
import proofs.«165898_j24137716204066_2_alg».proof.Proof.Gen.Kernel.Frame
import proofs.«165898_j24137716204066_2_alg».proof.Proof.Gen.KernelIdeal
import proofs.«165898_j24137716204066_2_alg».proof.Proof.Gen.KernelIdeal.Frame
import proofs.«165898_j24137716204066_2_alg».proof.Proof.Gen.KernelIdeal.Value
import proofs.«165898_j24137716204066_2_alg».proof.Proof.Gen.ReferenceIdeal
import proofs.«165898_j24137716204066_2_alg».proof.Proof.Gen.ReferenceIdeal.Run
import proofs.«165898_j24137716204066_2_alg».proof.Proof.Gen.ReferenceIdeal.Read
import proofs.«165898_j24137716204066_2_alg».proof.Proof.Gen.Pre_finite_inputs
import proofs.«165898_j24137716204066_2_alg».proof.Proof.Distance
import proofs.«165898_j24137716204066_2_alg».proof.Proof.RefRead
import proofs.«165898_j24137716204066_2_alg».proof.Proof.KernelValue
import proofs.«165898_j24137716204066_2_alg».proof.Proof.Finite
import Idealize.ShloMosaic.Adequacy
import Idealize.ShloMosaic.Init

noncomputable section

namespace Cert.Proof

open Idealize.ShloMosaic Idealize.ShloMosaic.TcCoe Idealize.SL.Sem

/-- The kernel as printed runs and leaves its arguments as they were. -/
theorem frame_kernel : Cert.frame_Kernel := fun m ρ _ => Cert.Kernel.Gen.frame m ρ

/-- So does the kernel read on exact values. -/
theorem frame_kernelIdeal : Cert.frame_KernelIdeal := fun m ρ _ => Cert.KernelIdeal.Gen.frame m ρ

/-- The reference is a straight line of host operations: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- On exact values, from memories that agree on the three inputs, the kernel ends at the clamped radial basis array
    and the reference at the unclamped one; the inputs of the kernel's memory are finite, so its `x` and `centers`
    have real entries and the two arrays are one. -/
theorem algebraic : Cert.algebraic_KernelIdeal_ReferenceIdeal := by
  intro m ρ m' ρ' hpre hagree
  refine ⟨fun c => Cert.Rbf.rbf
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)), ?_, ?_⟩
  · refine (θ_run Cert.KernelIdeal.defs _ _).mono (fun r h c => ⟨(h c).1.trans ?_, (h c).2⟩) (Cert.Rbf.Kernel.run m ρ)
    obtain ⟨hX, hC⟩ := Cert.Rbf.Finite.of_pre _ _ _ (hpre c)
    exact Cert.Rbf.rbfClamped_eq_rbf _ _ _ hX hC
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v17_eq, Cert.Rbf.Reference.stage_eq_rbf,
      (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
